-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn {F : FTy → Type} [FloatOps F] (main_arg0 : FVec F S4x2048x4096 .f32) (main_arg1 : FVec F S16x4096 .f32) (main_arg2 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  main_v13
-- ==== Kernel.lean ====
abbrev S4x2048x4096 : Shape := ⟨3, ![4, 2048, 4096]⟩
abbrev S16x4096 : Shape := ⟨2, ![16, 4096]⟩
abbrev S4096x16 : Shape := ⟨2, ![4096, 16]⟩
abbrev S8192x4096 : Shape := ⟨2, ![8192, 4096]⟩
abbrev S512x4096 : Shape := ⟨2, ![512, 4096]⟩
abbrev S16x2048 : Shape := ⟨2, ![16, 2048]⟩
abbrev S512x2048 : Shape := ⟨2, ![512, 2048]⟩
abbrev S512x16 : Shape := ⟨2, ![512, 16]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S16x4096, .f32⟩
  | .hbm, ⟨2, _⟩ => ⟨S4096x16, .f32⟩
  | .hbm, ⟨3, _⟩ => ⟨S8192x4096, .f32⟩
  | .hbm, ⟨4, _⟩ => ⟨S16x4096, .f32⟩
  | .hbm, ⟨5, _⟩ => ⟨S8192x4096, .f32⟩
  | .hbm, ⟨6, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S16x4096, .f32⟩
  | .local _ .vmem, ⟨3, _⟩ => ⟨S16x2048, .f32⟩
  | .local _ .vmem, ⟨4, _⟩ => ⟨S512x2048, .f32⟩
  | .local _ .vmem, ⟨5, _⟩ => ⟨S512x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  transposes_S4096x16_S16x4096_1_0 : S4096x16.Transposes [1, 0] S16x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S16x2048_S16x2048_0_0 : ∀ a, (![0, 0] : Fin 2 → Nat) a + S16x2048.size a ≤ S16x2048.size a
  h_S16x2048 : 0 < S16x2048.numel
  inb_S512x2048_S512x2048_0_0 : ∀ a, (![0, 0] : Fin 2 → Nat) a + S512x2048.size a ≤ S512x2048.size a
  h_S512x2048 : 0 < S512x2048.numel
  shapeCasts_S8192x4096_S4x2048x4096 : S8192x4096.ShapeCasts S4x2048x4096
  dot_S512x4096_S16x4096_S512x16_1_1_0_0_n_n_wf : DotDims.WF S512x4096 S16x4096 S512x16 [1] [1] [0] [0] [] []
  dot_S512x16_S16x2048_S512x2048_1_0_0_1_n_n_wf : DotDims.WF S512x16 S16x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .f32 = 32 ∨ (Rect.block (s := S16x4096) S16x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x4096.size a
  hwx0_2 : ∀ i : grid0.Coords, EltTy.bits .f32 = 32 ∨ (Rect.block (s := S16x4096) S16x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x4096.size a
  hwx0_3 : ∀ i : grid0.Coords, EltTy.bits .f32 = 32 ∨ (Rect.block (s := S8192x4096) S512x2048.size (cc0_transform_3 i) (hinb0_3 i)).WholeWords (EltTy.packing .f32)

variable [Facts₀]

def dot_S512x4096_S16x4096_S512x16_1_1_0_0_n_n : DotDims S512x4096 S16x4096 S512x16 where
  lhsContracting := [1]
  rhsContracting := [1]
  lhsNonContracting := [0]
  rhsNonContracting := [0]
  lhsBatch := []
  rhsBatch := []
  wf := dot_S512x4096_S16x4096_S512x16_1_1_0_0_n_n_wf
def dot_S512x16_S16x2048_S512x2048_1_0_0_1_n_n : DotDims S512x16 S16x2048 S512x2048 where
  lhsContracting := [1]
  rhsContracting := [0]
  lhsNonContracting := [0]
  rhsNonContracting := [1]
  lhsBatch := []
  rhsBatch := []
  wf := dot_S512x16_S16x2048_S512x2048_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16x4096 : Shape := ⟨2, ![16, 4096]⟩
abbrev S4096x16 : Shape := ⟨2, ![4096, 16]⟩
abbrev S4x2048x16 : Shape := ⟨3, ![4, 2048, 16]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16x4096, .f32⟩
  | .hbm, ⟨2, _⟩ => ⟨S4096x16, .f32⟩
  | .hbm, ⟨3, _⟩ => ⟨S4x2048x16, .f32⟩
  | .hbm, ⟨4, _⟩ => ⟨S4x2048x4096, .f32⟩
  | .hbm, ⟨5, _⟩ => ⟨S_, .f32⟩
  | .hbm, ⟨6, _⟩ => ⟨S4x2048x4096, .f32⟩
  | .hbm, ⟨7, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  dot_S4x2048x4096_S4096x16_S4x2048x16_2_0_01_1_n_n_wf : DotDims.WF S4x2048x4096 S4096x16 S4x2048x16 [2] [0] [0, 1] [1] [] []
  dot_S4x2048x16_S16x4096_S4x2048x4096_2_0_01_1_n_n_wf : DotDims.WF S4x2048x16 S16x4096 S4x2048x4096 [2] [0] [0, 1] [1] [] []

variable [Facts₀]

def dot_S4x2048x4096_S4096x16_S4x2048x16_2_0_01_1_n_n : DotDims S4x2048x4096 S4096x16 S4x2048x16 where
  lhsContracting := [2]
  rhsContracting := [0]
  lhsNonContracting := [0, 1]
  rhsNonContracting := [1]
  lhsBatch := []
  rhsBatch := []
  wf := dot_S4x2048x4096_S4096x16_S4x2048x16_2_0_01_1_n_n_wf
def dot_S4x2048x16_S16x4096_S4x2048x4096_2_0_01_1_n_n : DotDims S4x2048x16 S16x4096 S4x2048x4096 where
  lhsContracting := [2]
  rhsContracting := [0]
  lhsNonContracting := [0, 1]
  rhsNonContracting := [1]
  lhsBatch := []
  rhsBatch := []
  wf := dot_S4x2048x16_S16x4096_S4x2048x4096_2_0_01_1_n_n_wf

class Facts : Prop extends Facts₀ where

variable [Facts]
-- ==== Proof.LowRank.lean ====
/-
  The mathematics of the certificate, with no program in sight.

  A low-rank adapter maps a row `x` of activations (4096 entries) through a down-projection `b` (4096 × 16), then an
  up-projection `a` (16 × 4096), and scales by alpha / rank = 32 / 16 = 2:
      out[o] = (∑ r < 16, (∑ k < 4096, x[k] · b[k, r]) · a[r, o]) · 2.
  Both programs compute exactly this double sum at every output entry; they differ only in how the arrays are laid out
  (the activations flattened to 8192 rows, the down-projection transposed, the work cut into 512 × 2048 tiles) and in
  rounding steps that are the identity on the extended reals. No algebraic law beyond re-indexing is needed, so the
  equality holds on all of the extended reals, infinite entries included.
-/
import Idealize.ShloMosaic.PureOps.Ideal
import Idealize.ShloMosaic.Lib.ValueIdx

noncomputable section

namespace Cert.LowRank

open Idealize.ShloMosaic Idealize.ShloMosaic.ValueIdx

/-- The scale alpha / rank = 2, as the 32-bit word both programs carry. The word is the same on both sides, so its
    value is never needed. -/
abbrev scale : EReal := Ideal.ofBits .f32 0x40000000#32

/-- One entry of the scaled low-rank product: `x` is a row of the activations, `b r k` the down-projection's entry
    (k, r), `a r` the column of the up-projection under the output entry. -/
def entry (x : Fin 4096 → EReal) (b : Fin 16 → Fin 4096 → EReal) (a : Fin 16 → EReal) : EReal :=
  (∑ r : Fin 16, (∑ k : Fin 4096, x k * b r k) * a r) * scale

/-- The product over the flattened layout: activations `x2` of 8192 rows, the down-projection transposed to
    `bt` (16 × 4096), the up-projection `a` (16 × 4096). -/
def flat (x2 : (⟨2, ![8192, 4096]⟩ : Shape).Idx → EReal) (bt : (⟨2, ![16, 4096]⟩ : Shape).Idx → EReal)
    (a : (⟨2, ![16, 4096]⟩ : Shape).Idx → EReal) : (⟨2, ![8192, 4096]⟩ : Shape).Idx → EReal :=
  fun j => entry (fun k => x2 (ix2 (j 0) k)) (fun r k => bt (ix2 r k)) (fun r => a (ix2 r (j 1)))

/-- The product over the arguments as given: activations `x` (4 × 2048 × 4096), up-projection `a` (16 × 4096),
    down-projection `b` (4096 × 16). -/
def full (x : (⟨3, ![4, 2048, 4096]⟩ : Shape).Idx → EReal) (a : (⟨2, ![16, 4096]⟩ : Shape).Idx → EReal)
    (b : (⟨2, ![4096, 16]⟩ : Shape).Idx → EReal) : (⟨3, ![4, 2048, 4096]⟩ : Shape).Idx → EReal :=
  fun i => entry (fun k => x (ix3 (i 0) (i 1) k)) (fun r k => b (ix2 k r)) (fun r => a (ix2 r (i 2)))

end Cert.LowRank

end
-- ==== Proof.RefLowRank.lean ====
/-
  The reference computes the low-rank product.

  The reference contracts the activations with the down-projection over the 4096 inputs, contracts the result with the
  up-projection over the 16 ranks, and multiplies by 2. Read at an output entry (b, s, o) this is
  (∑ r, (∑ k, x[b, s, k] · B[k, r]) · A[r, o]) · 2: the entry of `Cert.LowRank.full`.
-/
import proofs.«156134_j11965778887241_2_alg».proof.Proof.Gen.ReferenceIdeal.Read
import proofs.«156134_j11965778887241_2_alg».proof.Proof.LowRank

noncomputable section

namespace Cert.ReferenceIdeal.RefValue

open Cert.ReferenceIdeal Cert.ReferenceIdeal.Read Idealize.ShloMosaic Idealize.ShloMosaic.ValueIdx

/-- The reference's result, as a function of its three arguments, is the low-rank product: its two contractions are
    the two sums, read at the coordinates their dimension numbers name, and its last line is the scaling. -/
theorem result_eq (x : (⟨S4x2048x4096, .f32⟩ : BufTy).Contents (Elt Ideal)) (a : (⟨S16x4096, .f32⟩ : BufTy).Contents (Elt Ideal))
    (b : (⟨S4096x16, .f32⟩ : BufTy).Contents (Elt Ideal)) :
    val_main_v3 (F := Ideal) x a b = Cert.LowRank.full x a b := by
  funext i
  obtain ⟨p, s, o, rfl⟩ : ∃ (p : Fin 4) (s : Fin 2048) (o : Fin 4096), i = ix3 p s o := ⟨i 0, i 1, i 2, eq_ix3 i⟩
  rw [val_main_v3_apply, val_main_v1_apply, val_main_v2_apply, val_main_cst_apply]
  simp only [val_main_v0_apply]
  have e0 : ∀ (r : Fin 16) (k : Fin 4096), lidx_main_v0 (lidx_main_v1 (ix3 p s o) r) k = ix3 p s k := fun r k =>
    funext fun d => Fin.ext (by match d with | ⟨0, _⟩ => rfl | ⟨1, _⟩ => rfl | ⟨2, _⟩ => rfl)
  have e1 : ∀ (r : Fin 16) (k : Fin 4096), ridx_main_v0 (lidx_main_v1 (ix3 p s o) r) k = ix2 k r := fun r k =>
    funext fun d => Fin.ext (by match d with | ⟨0, _⟩ => rfl | ⟨1, _⟩ => rfl)
  have e2 : ∀ r : Fin 16, ridx_main_v1 (ix3 p s o) r = ix2 r o := fun r =>
    funext fun d => Fin.ext (by match d with | ⟨0, _⟩ => rfl | ⟨1, _⟩ => rfl)
  simp only [e0, e1, e2]
  rfl

end Cert.ReferenceIdeal.RefValue

end
-- ==== Proof.Tile.lean ====
/-
  What the kernel body computes on one tile.

  On a tile the body holds 512 rows of the flattened activations (`x0`, 512 × 4096), the whole transposed
  down-projection (`x1`, 16 × 4096) and 2048 columns of the up-projection (`x2`, 16 × 2048). It rounds each to
  bfloat16 (the identity on the extended reals), multiplies the rows into the down-projection over the 4096 inputs
  into a zero accumulator, rounds again, multiplies into the up-projection over the 16 ranks into a zero accumulator,
  and scales by 2. Entry (p, q) of what it stores is therefore the low-rank entry of row p of `x0` and column q of `x2`.
-/
import proofs.«156134_j11965778887241_2_alg».proof.Proof.Gen.KernelIdeal.Skeleton
import proofs.«156134_j11965778887241_2_alg».proof.Proof.LowRank
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-- The first product's operand coordinates: at output entry `j` and contracted position `k` the left operand is
    read at (j 0, k) and the right operand at (j 1, k) — both operands contract their second axis. -/
theorem down_lhs_0 (j : S512x16.Idx) (k : dot_S512x4096_S16x4096_S512x16_1_1_0_0_n_n.contr.Idx) : (dot_S512x4096_S16x4096_S512x16_1_1_0_0_n_n.lhsIdx j k 0).val = (j 0).val := by
  unfold DotDims.lhsIdx
  rw [dif_neg (show ¬(0 : Fin S512x4096.rank) ∈ dot_S512x4096_S16x4096_S512x16_1_1_0_0_n_n.lhsBatch by decide),
    dif_pos (show (0 : Fin S512x4096.rank) ∈ dot_S512x4096_S16x4096_S512x16_1_1_0_0_n_n.lhsNonContracting by decide)]
  rfl
theorem down_lhs_1 (j : S512x16.Idx) (k : dot_S512x4096_S16x4096_S512x16_1_1_0_0_n_n.contr.Idx) : (dot_S512x4096_S16x4096_S512x16_1_1_0_0_n_n.lhsIdx j k 1).val = (k ⟨0, by decide⟩).val :=
  dot_S512x4096_S16x4096_S512x16_1_1_0_0_n_n.lhsIdx_val_of_single rfl j k
theorem down_rhs_0 (j : S512x16.Idx) (k : dot_S512x4096_S16x4096_S512x16_1_1_0_0_n_n.contr.Idx) : (dot_S512x4096_S16x4096_S512x16_1_1_0_0_n_n.rhsIdx j k 0).val = (j 1).val := by
  unfold DotDims.rhsIdx
  rw [dif_neg (show ¬(0 : Fin S16x4096.rank) ∈ dot_S512x4096_S16x4096_S512x16_1_1_0_0_n_n.rhsBatch by decide),
    dif_pos (show (0 : Fin S16x4096.rank) ∈ dot_S512x4096_S16x4096_S512x16_1_1_0_0_n_n.rhsNonContracting by decide)]
  rfl
theorem down_rhs_1 (j : S512x16.Idx) (k : dot_S512x4096_S16x4096_S512x16_1_1_0_0_n_n.contr.Idx) : (dot_S512x4096_S16x4096_S512x16_1_1_0_0_n_n.rhsIdx j k 1).val = (k ⟨0, by decide⟩).val :=
  dot_S512x4096_S16x4096_S512x16_1_1_0_0_n_n.rhsIdx_val_of_single rfl j k

/-- The matrix unit's first product at an entry: rows of the left operand against rows of the right operand, from a
    zero accumulator, is the plain sum over the 4096 contracted positions. -/
theorem down_apply (u : FVec Ideal S512x4096 .bf16) (v : FVec Ideal S16x4096 .bf16) (p : Fin 512) (r : Fin 16) :
    matmul dot_S512x4096_S16x4096_S512x16_1_1_0_0_n_n none u v (constant S512x16 .f32 0x00000000#32) (ix2 p r)
      = ∑ k : Fin 4096, u (ix2 p k) * v (ix2 r k) := by
  show FloatOps.matmul dot_S512x4096_S16x4096_S512x16_1_1_0_0_n_n none u v (constant S512x16 .f32 0x00000000#32) (ix2 p r) = _
  rw [Ideal.matmul_constant_zero_apply, ← Equiv.sum_comp (contrEquiv1 dot_S512x4096_S16x4096_S512x16_1_1_0_0_n_n 4096 rfl rfl).symm]
  refine Finset.sum_congr rfl fun k _ => ?_
  have hk := contrEquiv1_symm_val dot_S512x4096_S16x4096_S512x16_1_1_0_0_n_n 4096 rfl rfl k
  have el : dot_S512x4096_S16x4096_S512x16_1_1_0_0_n_n.lhsIdx (ix2 p r) ((contrEquiv1 dot_S512x4096_S16x4096_S512x16_1_1_0_0_n_n 4096 rfl rfl).symm k) = ix2 p k :=
    funext fun d => Fin.ext (by
      match d with
      | ⟨0, _⟩ => exact down_lhs_0 _ _
      | ⟨1, _⟩ => exact (down_lhs_1 _ _).trans hk)
  have er : dot_S512x4096_S16x4096_S512x16_1_1_0_0_n_n.rhsIdx (ix2 p r) ((contrEquiv1 dot_S512x4096_S16x4096_S512x16_1_1_0_0_n_n 4096 rfl rfl).symm k) = ix2 r k :=
    funext fun d => Fin.ext (by
      match d with
      | ⟨0, _⟩ => exact down_rhs_0 _ _
      | ⟨1, _⟩ => exact (down_rhs_1 _ _).trans hk)
  rw [el, er]

/-- The second product's operand coordinates: the left operand is read at (j 0, k), the right at (k, j 1). -/
theorem up_lhs_0 (j : S512x2048.Idx) (k : dot_S512x16_S16x2048_S512x2048_1_0_0_1_n_n.contr.Idx) : (dot_S512x16_S16x2048_S512x2048_1_0_0_1_n_n.lhsIdx j k 0).val = (j 0).val := by
  unfold DotDims.lhsIdx
  rw [dif_neg (show ¬(0 : Fin S512x16.rank) ∈ dot_S512x16_S16x2048_S512x2048_1_0_0_1_n_n.lhsBatch by decide),
    dif_pos (show (0 : Fin S512x16.rank) ∈ dot_S512x16_S16x2048_S512x2048_1_0_0_1_n_n.lhsNonContracting by decide)]
  rfl
theorem up_lhs_1 (j : S512x2048.Idx) (k : dot_S512x16_S16x2048_S512x2048_1_0_0_1_n_n.contr.Idx) : (dot_S512x16_S16x2048_S512x2048_1_0_0_1_n_n.lhsIdx j k 1).val = (k ⟨0, by decide⟩).val :=
  dot_S512x16_S16x2048_S512x2048_1_0_0_1_n_n.lhsIdx_val_of_single rfl j k
theorem up_rhs_0 (j : S512x2048.Idx) (k : dot_S512x16_S16x2048_S512x2048_1_0_0_1_n_n.contr.Idx) : (dot_S512x16_S16x2048_S512x2048_1_0_0_1_n_n.rhsIdx j k 0).val = (k ⟨0, by decide⟩).val :=
  dot_S512x16_S16x2048_S512x2048_1_0_0_1_n_n.rhsIdx_val_of_single rfl j k
theorem up_rhs_1 (j : S512x2048.Idx) (k : dot_S512x16_S16x2048_S512x2048_1_0_0_1_n_n.contr.Idx) : (dot_S512x16_S16x2048_S512x2048_1_0_0_1_n_n.rhsIdx j k 1).val = (j 1).val := by
  unfold DotDims.rhsIdx
  rw [dif_neg (show ¬(1 : Fin S16x2048.rank) ∈ dot_S512x16_S16x2048_S512x2048_1_0_0_1_n_n.rhsBatch by decide),
    dif_pos (show (1 : Fin S16x2048.rank) ∈ dot_S512x16_S16x2048_S512x2048_1_0_0_1_n_n.rhsNonContracting by decide)]
  rfl

/-- The second product at an entry: rows of the left operand against columns of the right operand, from a zero
    accumulator, is the plain sum over the 16 ranks. -/
theorem up_apply (u : FVec Ideal S512x16 .bf16) (v : FVec Ideal S16x2048 .bf16) (p : Fin 512) (q : Fin 2048) :
    matmul dot_S512x16_S16x2048_S512x2048_1_0_0_1_n_n none u v (constant S512x2048 .f32 0x00000000#32) (ix2 p q)
      = ∑ r : Fin 16, u (ix2 p r) * v (ix2 r q) := by
  show FloatOps.matmul dot_S512x16_S16x2048_S512x2048_1_0_0_1_n_n none u v (constant S512x2048 .f32 0x00000000#32) (ix2 p q) = _
  rw [Ideal.matmul_constant_zero_apply, ← Equiv.sum_comp (contrEquiv1 dot_S512x16_S16x2048_S512x2048_1_0_0_1_n_n 16 rfl rfl).symm]
  refine Finset.sum_congr rfl fun k _ => ?_
  have hk := contrEquiv1_symm_val dot_S512x16_S16x2048_S512x2048_1_0_0_1_n_n 16 rfl rfl k
  have el : dot_S512x16_S16x2048_S512x2048_1_0_0_1_n_n.lhsIdx (ix2 p q) ((contrEquiv1 dot_S512x16_S16x2048_S512x2048_1_0_0_1_n_n 16 rfl rfl).symm k) = ix2 p k :=
    funext fun d => Fin.ext (by
      match d with
      | ⟨0, _⟩ => exact up_lhs_0 _ _
      | ⟨1, _⟩ => exact (up_lhs_1 _ _).trans hk)
  have er : dot_S512x16_S16x2048_S512x2048_1_0_0_1_n_n.rhsIdx (ix2 p q) ((contrEquiv1 dot_S512x16_S16x2048_S512x2048_1_0_0_1_n_n 16 rfl rfl).symm k) = ix2 k q :=
    funext fun d => Fin.ext (by
      match d with
      | ⟨0, _⟩ => exact (up_rhs_0 _ _).trans hk
      | ⟨1, _⟩ => exact up_rhs_1 _ _)
  rw [el, er]

/-- Entry (p, q) of the value the body stores is the low-rank entry of row p of the activations tile and column q of
    the up-projection tile. -/
theorem stored_apply (x0 : Vec Ideal S512x4096 .f32) (x1 : Vec Ideal S16x4096 .f32) (x2 : Vec Ideal S16x2048 .f32)
    (p : Fin 512) (q : Fin 2048) :
    k0_pay1 (F := Ideal) x0 x1 x2 (ix2 p q)
      = Cert.LowRank.entry (fun k => x0 (ix2 p k)) (fun r k => x1 (ix2 r k)) (fun r => x2 (ix2 r q)) := by
  unfold k0_pay1 Cert.LowRank.entry
  rw [shapeCast_self, shapeCast_self]
  show matmul (F := Ideal) dot_S512x16_S16x2048_S512x2048_1_0_0_1_n_n none _ _ _ (ix2 p q) * Ideal.ofBits .f32 0x40000000#32 = _
  rw [up_apply]
  refine congrArg (· * Cert.LowRank.scale) (Finset.sum_congr rfl fun r _ => ?_)
  show matmul (F := Ideal) dot_S512x4096_S16x4096_S512x16_1_1_0_0_n_n none _ _ _ (ix2 p r) * x2 (ix2 r q) = _
  rw [down_apply]
  rfl

/-- The same entry, with each tile named as the part of a whole array it holds: if row `y 0` of the activations tile is
    row `i 0` of the flattened activations `X`, the middle tile is all of `Bt`, and column `y 1` of the last tile is column
    `i 1` of `A`, then what the body stores at `y` is the flattened low-rank product at `i`. -/
theorem stored_flat (x0 : Vec Ideal S512x4096 .f32) (x1 : Vec Ideal S16x4096 .f32) (x2 : Vec Ideal S16x2048 .f32)
    (X : S8192x4096.Idx → EReal) (Bt A : S16x4096.Idx → EReal) (y : S512x2048.Idx) (i : S8192x4096.Idx)
    (h0 : ∀ k : Fin 4096, x0 (ix2 (y 0) k) = X (ix2 (i 0) k))
    (h1 : ∀ (r : Fin 16) (k : Fin 4096), x1 (ix2 r k) = Bt (ix2 r k))
    (h2 : ∀ r : Fin 16, x2 (ix2 r (y 1)) = A (ix2 r (i 1))) :
    k0_pay1 (F := Ideal) x0 x1 x2 y = Cert.LowRank.flat X Bt A i := by
  obtain ⟨p, q, rfl⟩ : ∃ (p : Fin 512) (q : Fin 2048), y = ix2 p q := ⟨y 0, y 1, eq_ix2 y⟩
  rw [stored_apply]
  unfold Cert.LowRank.flat
  exact congr (congr (congrArg Cert.LowRank.entry (funext h0)) (funext fun r => funext (h1 r))) (funext h2)

end Cert.KernelIdeal.Tile

end
-- ==== Proof.Region.lean ====
/-
  What the tiled region leaves in its output array.

  The grid has 16 × 2 points. At point (i, j) the body sees rows 512·i … 512·i + 511 of the flattened activations, the
  whole transposed down-projection, and columns 2048·j … 2048·j + 2047 of the up-projection, and writes tile (i, j)
  (512 × 2048) of the output. What it writes is, entry by entry, the flattened low-rank product of the three whole
  arrays read at that entry's place in the output; the 32 tiles cover the 8192 × 4096 output, so after the region the
  output array is the flattened low-rank product.
-/
import proofs.«156134_j11965778887241_2_alg».proof.Proof.Gen.KernelIdeal.Frame
import proofs.«156134_j11965778887241_2_alg».proof.Proof.Tile
import Idealize.ShloMosaic.Lib.Pipeline.Value

noncomputable section

namespace Cert.KernelIdeal.Region

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

theorem offsets_zero : (![0, 0] : Fin 2 → Nat) = fun _ => 0 := funext fun a => by fin_cases a <;> rfl

/-- How the four windows move over the grid, decided once over its 32 points: the activations' row block is the output's,
    the down-projection never moves, the up-projection's column block is the output's, and the output's block indices
    stay below 16 and 2. -/
theorem tile_index : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = win0_3.index t (1 : Fin 2)
    ∧ win0_3.index t (0 : Fin 2) ≤ 15 ∧ win0_3.index t (1 : Fin 2) ≤ 1 :=
  (by decide +kernel : ∀ t : Fin grid0.N, _)

/-- Every one of the 16 × 2 output tiles is some point's. -/
theorem tile_onto : ∀ (q0 : Fin 16) (q1 : Fin 2), ∃ t : Fin cfg0.N, win0_3.index t = ![q0.val, q1.val] :=
  (by decide +kernel : ∀ (q0 : Fin 16) (q1 : Fin 2), ∃ t : Fin grid0.N, win0_3.index t = ![q0.val, q1.val])

/-- The activations window at a point holds 512 rows of the flattened activations, starting at 512 times the output
    tile's row index. -/
theorem rows_apply (c : Dev nD) (t : Fin cfg0.N) (y : S512x4096.Idx) (k : S8192x4096.Idx)
    (hk0 : (k 0).val = win0_3.index t (0 : Fin 2) * 512 + (y 0).val) (hk1 : (k 1).val = (y 1).val) :
    (iblk m c 0 t : Vec Ideal S512x4096 .f32) y = (V m c main_v0 : S8192x4096.Idx → EReal) k := by
  obtain ⟨e0, e1, -⟩ := tile_index t
  unfold iblk
  rw [View.read_apply]
  show V m c main_v0 _ = V m c main_v0 _
  refine congrArg (V m c main_v0) (funext fun a => Fin.ext ?_)
  match a with
  | ⟨0, _⟩ => show win0_0.index t (0 : Fin 2) * 512 + 1 * (y 0).val = (k 0).val; rw [e0, hk0]; omega
  | ⟨1, _⟩ => show win0_0.index t (1 : Fin 2) * 4096 + 1 * (y 1).val = (k 1).val; rw [e1, hk1]; omega

/-- The down-projection window at every point holds the whole transposed down-projection. -/
theorem down_apply (c : Dev nD) (t : Fin cfg0.N) (y : S16x4096.Idx) :
    (iblk m c 1 t : Vec Ideal S16x4096 .f32) y = (V m c main_v1 : S16x4096.Idx → EReal) y := by
  obtain ⟨-, -, e0, e1, -⟩ := tile_index t
  unfold iblk
  rw [View.read_apply]
  show V m c main_v1 _ = V m c main_v1 _
  refine congrArg (V m c main_v1) (funext fun a => Fin.ext ?_)
  match a with
  | ⟨0, _⟩ => show win0_1.index t (0 : Fin 2) * 16 + 1 * (y 0).val = (y 0).val; rw [e0]; omega
  | ⟨1, _⟩ => show win0_1.index t (1 : Fin 2) * 4096 + 1 * (y 1).val = (y 1).val; rw [e1]; omega

/-- The up-projection window at a point holds 2048 columns of the up-projection, starting at 2048 times the output
    tile's column index. -/
theorem cols_apply (c : Dev nD) (t : Fin cfg0.N) (y : S16x2048.Idx) (k : S16x4096.Idx)
    (hk0 : (k 0).val = (y 0).val) (hk1 : (k 1).val = win0_3.index t (1 : Fin 2) * 2048 + (y 1).val) :
    (iblk m c 2 t : Vec Ideal S16x2048 .f32) y = (V m c main_arg1 : S16x4096.Idx → EReal) k := by
  obtain ⟨-, -, -, -, e0, e1, -⟩ := tile_index t
  unfold iblk
  rw [View.read_apply]
  show V m c main_arg1 _ = V m c main_arg1 _
  refine congrArg (V m c main_arg1) (funext fun a => Fin.ext ?_)
  match a with
  | ⟨0, _⟩ => show win0_2.index t (0 : Fin 2) * 16 + 1 * (y 0).val = (k 0).val; rw [e0, hk0]; omega
  | ⟨1, _⟩ => show win0_2.index t (1 : Fin 2) * 2048 + 1 * (y 1).val = (k 1).val; rw [e1, hk1]; omega

/-- What a point writes back is its tile of the flattened low-rank product of the three arrays as the region finds them. -/
theorem flushed_eq (c : Dev nD) (t : Fin cfg0.N) :
    (dats m 0 c).flushed 3 t
      = ((cfg0.win 3).blk t).view.read (Elt Ideal) (Cert.LowRank.flat (V m c main_v0) (V m c main_v1) (V m c main_arg1)) := by
  show (cfg0.win 3).cut (grid0.coords t) ((dats m 0 c).after 3 t) = _
  rw [after0_3]
  unfold out0_3
  rw [View.canon_unit_zero offsets_zero]
  simp only [View.ld_unit_zero (S := S512x4096) offsets_zero, View.ld_unit_zero (S := S16x4096) offsets_zero,
    View.ld_unit_zero (S := S16x2048) offsets_zero]
  funext j
  show k0_pay1 (iblk m c 0 t) (iblk m c 1 t) (iblk m c 2 t) j
    = Cert.LowRank.flat (V m c main_v0) (V m c main_v1) (V m c main_arg1) (((cfg0.win 3).blk t).view.emb j)
  refine Tile.stored_flat _ _ _ _ _ _ j _ (fun k => ?_) (fun r k => ?_) (fun r => ?_)
  · refine rows_apply m c t _ _ ?_ rfl
    show win0_3.index t (0 : Fin 2) * 512 + 1 * (j 0).val = win0_3.index t (0 : Fin 2) * 512 + (j 0).val
    omega
  · exact down_apply m c t _
  · refine cols_apply m c t _ _ rfl ?_
    show win0_3.index t (1 : Fin 2) * 2048 + 1 * (j 1).val = win0_3.index t (1 : Fin 2) * 2048 + (j 1).val
    omega

/-- An entry of the output is in a point's tile exactly when each coordinate is in the tile's range on its axis. -/
theorem mem_tile (t : Fin cfg0.N) (i : S8192x4096.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v2).slice (win0_3.rect t)).set ↔ _
  rw [View.set_slice_whole, Rect.mem_set_unit]
  exact Iff.rfl

/-- The tiles cover the output: entry (r, o) lies in tile (r / 512, o / 2048). -/
theorem tiles_cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := tile_onto ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_tile]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-- After the region the output array is the flattened low-rank product of the arrays as the region found them. -/
theorem output_eq (c : Dev nD) :
    (dats m 0 c).arrAt 3 cfg0.N = Cert.LowRank.flat (V m c main_v0) (V m c main_v1) (V m c main_arg1) :=
  (dats m 0 c).arrAt_eq_of_cover 3 _ (fun t _ => flushed_eq m c t) tiles_cover

end Cert.KernelIdeal.Region

end
-- ==== Proof.Layout.lean ====
/-
  The two layouts agree.

  The kernel's program flattens the activations (4 × 2048 × 4096) to 8192 rows before the tiles are cut, transposes the
  down-projection (4096 × 16) to 16 × 4096, and after the tiles are written back unflattens the 8192 × 4096 result
  to 4 × 2048 × 4096. Row-major flattening sends (b, s) to row 2048·b + s and leaves the last coordinate alone, and
  a transpose swaps the two coordinates; so the flattened product of the flattened activations and the transposed
  down-projection, unflattened, is the product over the arguments as given — entry by entry the same double sum.
-/
import proofs.«156134_j11965778887241_2_alg».proof.KernelIdeal
import proofs.«156134_j11965778887241_2_alg».proof.Proof.LowRank
import Idealize.ShloMosaic.Lib.Pipeline.Value
import Idealize.ShloMosaic.Lib.ValueIdx

noncomputable section

namespace Cert.KernelIdeal.Layout

open Cert.KernelIdeal Idealize.ShloMosaic Idealize.ShloMosaic.ValueIdx

/-- Row `2048·b + s` of the flattened activations is row (b, s) of the activations. -/
theorem flatten_apply (x : S4x2048x4096.Idx → EReal) (h : S4x2048x4096.ShapeCasts S8192x4096)
    (p : Fin 4) (s : Fin 2048) (k : Fin 4096) (row : Fin 8192) (hrow : row.val = p.val * 2048 + s.val) :
    shapeCast S8192x4096 x h (ix2 row k) = x (ix3 p s k) := by
  refine shapeCast_apply x h (ix2 row k) (ix3 p s k) ?_
  rw [Shape.rowMajor_val_three, Shape.rowMajor_val_two]
  show (p.val * 2048 + s.val) * 4096 + k.val = row.val * 4096 + k.val
  rw [hrow]

/-- Entry (r, k) of the transposed down-projection is entry (k, r) of the down-projection. -/
theorem transpose_apply' (b : S4096x16.Idx → EReal) (h : S4096x16.Transposes [1, 0] S16x4096) (r : Fin 16) (k : Fin 4096) :
    transpose S16x4096 [1, 0] b h (ix2 r k) = b (ix2 k r) := by
  refine transpose_apply [1, 0] b h (ix2 r k) (ix2 k r) fun d => ?_
  match d with
  | ⟨0, _⟩ => rfl
  | ⟨1, _⟩ => rfl

/-- Flatten, transpose, take the flattened product, unflatten: the product over the arguments as given. -/
theorem unflatten_flat (x : S4x2048x4096.Idx → EReal) (a : S16x4096.Idx → EReal) (b : S4096x16.Idx → EReal)
    (h1 : S4x2048x4096.ShapeCasts S8192x4096) (h2 : S4096x16.Transposes [1, 0] S16x4096)
    (h3 : S8192x4096.ShapeCasts S4x2048x4096) :
    shapeCast S4x2048x4096 (Cert.LowRank.flat (shapeCast S8192x4096 x h1) (transpose S16x4096 [1, 0] b h2) a) h3
      = Cert.LowRank.full x a b := by
  funext i
  obtain ⟨p, s, o, rfl⟩ : ∃ (p : Fin 4) (s : Fin 2048) (o : Fin 4096), i = ix3 p s o := ⟨i 0, i 1, i 2, eq_ix3 i⟩
  have hrow : p.val * 2048 + s.val < 8192 := by have := p.isLt; have := s.isLt; omega
  rw [shapeCast_apply _ h3 (ix3 p s o) (ix2 ⟨p.val * 2048 + s.val, hrow⟩ o) (by
    rw [Shape.rowMajor_val_three, Shape.rowMajor_val_two]; rfl)]
  unfold Cert.LowRank.flat Cert.LowRank.full
  refine congr (congr (congrArg Cert.LowRank.entry (funext fun k => ?_)) (funext fun r => funext fun k => ?_)) rfl
  · exact flatten_apply x h1 p s k _ rfl
  · exact transpose_apply' b h2 r k

end Cert.KernelIdeal.Layout

end
-- ==== Proof.Whole.lean ====
/-
  The kernel's program, end to end.

  Before the region the program flattens the activations and transposes the down-projection; the region then leaves
  the flattened low-rank product of those two and the up-projection in its output; after the region the program
  unflattens that output. By the layout lemma the result is the low-rank product of the three arguments as given.
-/
import proofs.«156134_j11965778887241_2_alg».proof.Proof.Gen.KernelIdeal.Frame
import proofs.«156134_j11965778887241_2_alg».proof.Proof.Region
import proofs.«156134_j11965778887241_2_alg».proof.Proof.Layout
import Idealize.ShloMosaic.Lib.StableHlo.Run

noncomputable section

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The region finds the activations flattened. -/
theorem entry_rows (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results; rfl

/-- The region finds the down-projection transposed. -/
theorem entry_down (c : Dev nD) : (V m c main_v1 : S16x4096.Idx → EReal)
    = transpose S16x4096 [1, 0] (m ((c : Thread nD τ).loc main_arg2)) transposes_S4096x16_S16x4096_1_0 := by
  show StableHlo.after hostOps0 (fun b => m (c, b)) (Proc.devRef .tc main_v1) = _
  after_results

/-- The program's result is the low-rank product of its three arguments. -/
theorem result_eq (c : Dev nD) :
    Pipeline.afterTail₀ cfgs (dats m) 0 (V0 m) [hostOps1] c main_v3
      = Cert.LowRank.full (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have hout := (Pipeline.withArrays_arr spec0 launch0.win.arr_inj c (V0 m c) (fun w => (dats m 0 c).arrAt w cfg0.N) 3).trans
    (Region.output_eq m c)
  show shapeCast S4x2048x4096 (Pipeline.withArrays spec0 c (V0 m c) (fun w => (dats m 0 c).arrAt w cfg0.N)
    (Proc.devRef .tc (Pipeline.arrRef spec0 3))) shapeCasts_S8192x4096_S4x2048x4096 = _
  rw [hout, entry_rows m c, entry_down m c, V_main_arg1 m c]
  exact Layout.unflatten_flat _ _ _ _ _ _

/-- Every weakly fair execution of the kernel's program terminates with the result at the low-rank product of the
    arguments and the arguments unchanged: the generated frame run, with its result array and its argument arrays read. -/
theorem run : θ_run defs (onTc (τ := τ) (main (F := Ideal))) ⟨m, fun _ => 0, ρ⟩ fun r => ∀ c : Dev nD,
      r.2.mem ((c.tc : Thread nD τ).loc main_v3)
        = Cert.LowRank.full (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c)⟩)
    (run_main m ρ)

end Cert.KernelIdeal.Whole

end
-- ==== Proof.lean ====
/-
  A low-rank adapter, tiled on the matrix unit, against its two-contraction reference.

  For activations x (4 × 2048 × 4096), a down-projection B (4096 × 16) and an up-projection A (16 × 4096), both programs
  compute out[b, s, o] = (∑ r < 16, (∑ k < 4096, x[b, s, k] · B[k, r]) · A[r, o]) · 2 on the extended reals.

  The reference does it with two contractions and a multiplication. The kernel's program flattens the activations to
  8192 rows, transposes B, and runs a 16 × 2 grid whose point (i, j) multiplies rows 512·i … of the activations into
  the transposed B over the 4096 inputs, multiplies the result into columns 2048·j … of A over the 16 ranks, scales by
  2 and writes tile (i, j) of the output; the roundings to bfloat16 on the way into the matrix unit are the identity on
  the extended reals, and each product starts from a zero accumulator. The tiles cover the output, and unflattening it
  gives the same double sum entry by entry. Only re-indexing is used — no distributivity, no cancellation — so the
  equality needs nothing of the inputs: the finiteness precondition is never opened.

  The modules: LowRank (the double sum as a function of the arrays), RefLowRank (the reference is that function), Tile
  (the kernel body on one tile), Region (the tiles assemble the flattened product), Layout (flattening and
  transposing do not change the entries), Whole (the kernel's program from its arguments to its result).
  The kernel's reading on the extended reals is its own text, operation for operation, so the idealization conjunct
  is the trivial proposition.
-/
import proofs.«156134_j11965778887241_2_alg».proof.Defs
import proofs.«156134_j11965778887241_2_alg».proof.Proof.Gen.Kernel
import proofs.«156134_j11965778887241_2_alg».proof.Proof.Gen.Kernel.Skeleton
import proofs.«156134_j11965778887241_2_alg».proof.Proof.Gen.Kernel.Launch
import proofs.«156134_j11965778887241_2_alg».proof.Proof.Gen.Kernel.Points
import proofs.«156134_j11965778887241_2_alg».proof.Proof.Gen.Kernel.Frame
import proofs.«156134_j11965778887241_2_alg».proof.Proof.Gen.KernelIdeal
import proofs.«156134_j11965778887241_2_alg».proof.Proof.Gen.KernelIdeal.Skeleton
import proofs.«156134_j11965778887241_2_alg».proof.Proof.Gen.KernelIdeal.Launch
import proofs.«156134_j11965778887241_2_alg».proof.Proof.Gen.KernelIdeal.Points
import proofs.«156134_j11965778887241_2_alg».proof.Proof.Gen.KernelIdeal.Frame
import proofs.«156134_j11965778887241_2_alg».proof.Proof.Gen.ReferenceIdeal
import proofs.«156134_j11965778887241_2_alg».proof.Proof.Gen.ReferenceIdeal.Run
import proofs.«156134_j11965778887241_2_alg».proof.Proof.Gen.ReferenceIdeal.Read
import proofs.«156134_j11965778887241_2_alg».proof.Proof.Gen.Pre_finite_inputs
import proofs.«156134_j11965778887241_2_alg».proof.Proof.RefLowRank
import proofs.«156134_j11965778887241_2_alg».proof.Proof.Whole
import Idealize.ShloMosaic.Adequacy
import Idealize.ShloMosaic.Init

noncomputable section

namespace Cert.Proof

open Idealize.ShloMosaic Idealize.SL.Sem

/-- The kernel's program as printed terminates without a fault and leaves its arguments alone. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals, from memories that agree on the three arguments, both programs end with the low-rank
    product of those arguments: the kernel's program by `Whole.run`, the reference by its run and `RefValue.result_eq`. -/
theorem algebraic : Cert.algebraic_KernelIdeal_ReferenceIdeal := by
  intro m ρ m' ρ' _ hagree
  refine ⟨fun c => Cert.LowRank.full
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
